-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x128 : Shape := ⟨2, ![512, 128]⟩
abbrev S128 : Shape := ⟨1, ![128]⟩
abbrev S128x40 : Shape := ⟨2, ![128, 40]⟩
abbrev S40 : Shape := ⟨1, ![40]⟩
abbrev S2x1600000 : Shape := ⟨2, ![2, 1600000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg4 : FVec F S128x40 .f32) (main_arg5 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x40 .f32 := Host.absf main_arg4
  let main_cst_6 : FVec F S_ .f32 := constant S_ .f32 0x7F800000#32
  let main_v20 : FVec F S128x40 .f32 := broadcastInDim S128x40 ![] bcast_S_S128x40 main_cst_6
  let main_v21 : IVec S128x40 1 := cmpf .olt main_v19 main_v20
  let main_c_7 : IVec S_ 1 := constantI S_ 1 1#1
  let main_v22 : IVec S_ 1 := (fun x v => Host.reduce IntOp.andi x v reducesTo_S128x40_S_d0_1 h_S_) main_v21 main_c_7
  let main_v23 : IVec S_ 1 := andi main_v18 main_v22
  let main_v24 : FVec F S40 .f32 := Host.absf main_arg5
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S100000x512 .f32) (main_arg1 : FVec F S100000x512 .f32) (main_arg2 : FVec F S512x128 .f32) (main_arg3 : FVec F S128 .f32) (main_arg4 : FVec F S128x40 .f32) (main_arg5 : FVec F S40 .f32) (main_arg6 : IVec S2x1600000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S100000x512 .f32 := Host.absf main_arg1
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  let main_v9 : FVec F S512x128 .f32 := Host.absf main_arg2
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S100000x512 : Shape := ⟨2, ![100000, 512]⟩
abbrev S512x128 : Shape := ⟨2, ![512, 128]⟩
abbrev S128 : Shape := ⟨1, ![128]⟩
abbrev S128x40 : Shape := ⟨2, ![128, 40]⟩
abbrev S40 : Shape := ⟨1, ![40]⟩
abbrev S2x1600000 : Shape := ⟨2, ![2, 1600000]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S2000x512 : Shape := ⟨2, ![2000, 512]⟩
abbrev S2000x128 : Shape := ⟨2, ![2000, 128]⟩
abbrev S1700000x128 : Shape := ⟨2, ![1700000, 128]⟩
abbrev S1x128 : Shape := ⟨2, ![1, 128]⟩
abbrev S5000x128 : Shape := ⟨2, ![5000, 128]⟩
abbrev S100000x40 : Shape := ⟨2, ![100000, 40]⟩
abbrev S5000x40 : Shape := ⟨2, ![5000, 40]⟩
abbrev S1700000x40 : Shape := ⟨2, ![1700000, 40]⟩
abbrev S1x40 : Shape := ⟨2, ![1, 40]⟩

abbrev nBuf : Space → Nat
  | .hbm => 86
  | .vmem => 17
  | .smem => 0
  | _ => 0

abbrev bufTy : (tb : Table) → Fin (tcTables nBuf tb) → BufTy
  | .hbm, ⟨0, _⟩ => ⟨S100000x512, .f32⟩
  | .hbm, ⟨1, _⟩ => ⟨S100000x512, .f32⟩
  | .hbm, ⟨2, _⟩ => ⟨S512x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S2x1600000, .i32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x128, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x1, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x40, .f32⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x40, .f32⟩
  | .hbm, ⟨76, _⟩ => ⟨S1700000x1, .f32⟩
  | .hbm, ⟨77, _⟩ => ⟨S1700000x40, .f32⟩
  | .hbm, ⟨78, _⟩ => ⟨S1700000x40, .f32⟩
  | .hbm, ⟨79, _⟩ => ⟨S_, .f32⟩
  | .hbm, ⟨80, _⟩ => ⟨S100000x40, .f32⟩
  | .hbm, ⟨81, _⟩ => ⟨S1700000x1, .i32⟩
  | .hbm, ⟨82, _⟩ => ⟨S100000x40, .f32⟩
  | .hbm, ⟨83, _⟩ => ⟨S1x40, .f32⟩
  | .hbm, ⟨84, _⟩ => ⟨S100000x40, .f32⟩
  | .hbm, ⟨85, _⟩ => ⟨S100000x40, .f32⟩
  | .local _ .vmem, ⟨0, _⟩ => ⟨S2000x512, .f32⟩
  | .local _ .vmem, ⟨1, _⟩ => ⟨S2000x512, .f32⟩
  | .local _ .vmem, ⟨2, _⟩ => ⟨S2000x512, .f32⟩
  | .local _ .vmem, ⟨3, _⟩ => ⟨S2000x512, .f32⟩
  | .local _ .vmem, ⟨4, _⟩ => ⟨S512x128, .f32⟩
  | .local _ .vmem, ⟨5, _⟩ => ⟨S2000x128, .f32⟩
  | .local _ .vmem, ⟨6, _⟩ => ⟨S2000x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x40, .f32⟩
  | .local _ .vmem, ⟨15, _⟩ => ⟨S5000x40, .f32⟩
  | .local _ .vmem, ⟨16, _⟩ => ⟨S5000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_9 : Ref sig .tc := ⟨.hbm, 67, rfl⟩
abbrev main_v47 : Ref sig .tc := ⟨.hbm, 68, rfl⟩
abbrev main_v48 : Ref sig .tc := ⟨.hbm, 69, rfl⟩
abbrev main_c_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x512_S512x128_S2000x128_1_0_0_1_n_n_wf : DotDims.WF S2000x512 S512x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x40_S5000x40_1_0_0_1_n_n_wf : DotDims.WF S5000x128 S128x40 S5000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x512.size a ≤ S100000x512.size a
  hwx0_1 : ∀ i : grid0.Coords, EltTy.bits .f32 = 32 ∨ (Rect.block (s := S100000x512) S2000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .f32 = 32 ∨ (Rect.block (s := S512x128) S512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .f32 = 32 ∨ (Rect.block (s := S128x40) S128x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S100000x40.size a
  hwx2_2 : ∀ i : grid2.Coords, EltTy.bits .f32 = 32 ∨ (Rect.block (s := S100000x40) S5000x40.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x512 : Shape := ⟨2, ![100000, 512]⟩
abbrev S512x128 : Shape := ⟨2, ![512, 128]⟩
abbrev S128 : Shape := ⟨1, ![128]⟩
abbrev S128x40 : Shape := ⟨2, ![128, 40]⟩
abbrev S40 : Shape := ⟨1, ![40]⟩
abbrev S2x1600000 : Shape := ⟨2, ![2, 1600000]⟩
abbrev S1x1600000 : Shape := ⟨2, ![1, 1600000]⟩
abbrev S1600000 : Shape := ⟨1, ![1600000]⟩
abbrev S100000x128 : Shape := ⟨2, ![100000, 128]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x40 : Shape := ⟨2, ![100000, 40]⟩
abbrev S1700000x40 : Shape := ⟨2, ![1700000, 40]⟩
abbrev S1x40 : Shape := ⟨2, ![1, 40]⟩

abbrev nBuf : Space → Nat
  | .hbm => 127
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S100000x512, .f32⟩
  | .hbm, ⟨2, _⟩ => ⟨S512x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S2x1600000, .i32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000x512, .f32⟩
  | .hbm, ⟨12, _⟩ => ⟨S100000x128, .f32⟩
  | .hbm, ⟨13, _⟩ => ⟨S100000, .i32⟩
  | .hbm, ⟨14, _⟩ => ⟨S1700000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x40, .f32⟩
  | .hbm, ⟨72, _⟩ => ⟨S100000, .i32⟩
  | .hbm, ⟨73, _⟩ => ⟨S1700000, .i32⟩
  | .hbm, ⟨74, _⟩ => ⟨S1700000, .i32⟩
  | .hbm, ⟨75, _⟩ => ⟨S_, .f32⟩
  | .hbm, ⟨76, _⟩ => ⟨S1700000, .f32⟩
  | .hbm, ⟨77, _⟩ => ⟨S_, .f32⟩
  | .hbm, ⟨78, _⟩ => ⟨S100000, .f32⟩
  | .hbm, ⟨79, _⟩ => ⟨S1700000x1, .i32⟩
  | .hbm, ⟨80, _⟩ => ⟨S100000, .f32⟩
  | .hbm, ⟨81, _⟩ => ⟨S_, .f32⟩
  | .hbm, ⟨82, _⟩ => ⟨S100000, .f32⟩
  | .hbm, ⟨83, _⟩ => ⟨S100000, .i1⟩
  | .hbm, ⟨84, _⟩ => ⟨S100000, .f32⟩
  | .hbm, ⟨85, _⟩ => ⟨S_, .f32⟩
  | .hbm, ⟨86, _⟩ => ⟨S_, .f32⟩
  | .hbm, ⟨87, _⟩ => ⟨S100000, .f32⟩
  | .hbm, ⟨88, _⟩ => ⟨S100000, .f32⟩
  | .hbm, ⟨89, _⟩ => ⟨S_, .i32⟩
  | .hbm, ⟨90, _⟩ => ⟨S1700000, .i32⟩
  | .hbm, ⟨91, _⟩ => ⟨S1700000, .i1⟩
  | .hbm, ⟨92, _⟩ => ⟨S_, .i32⟩
  | .hbm, ⟨93, _⟩ => ⟨S1700000, .i32⟩
  | .hbm, ⟨94, _⟩ => ⟨S1700000, .i32⟩
  | .hbm, ⟨95, _⟩ => ⟨S1700000, .i32⟩
  | .hbm, ⟨96, _⟩ => ⟨S1700000x1, .i32⟩
  | .hbm, ⟨97, _⟩ => ⟨S1700000, .f32⟩
  | .hbm, ⟨98, _⟩ => ⟨S_, .i32⟩
  | .hbm, ⟨99, _⟩ => ⟨S1700000, .i32⟩
  | .hbm, ⟨100, _⟩ => ⟨S1700000, .i1⟩
  | .hbm, ⟨101, _⟩ => ⟨S_, .i32⟩
  | .hbm, ⟨102, _⟩ => ⟨S1700000, .i32⟩
  | .hbm, ⟨103, _⟩ => ⟨S1700000, .i32⟩
  | .hbm, ⟨104, _⟩ => ⟨S1700000, .i32⟩
  | .hbm, ⟨105, _⟩ => ⟨S1700000x1, .i32⟩
  | .hbm, ⟨106, _⟩ => ⟨S1700000, .f32⟩
  | .hbm, ⟨107, _⟩ => ⟨S1700000, .f32⟩
  | .hbm, ⟨108, _⟩ => ⟨S_, .i32⟩
  | .hbm, ⟨109, _⟩ => ⟨S1700000, .i32⟩
  | .hbm, ⟨110, _⟩ => ⟨S1700000, .i1⟩
  | .hbm, ⟨111, _⟩ => ⟨S_, .i32⟩
  | .hbm, ⟨112, _⟩ => ⟨S1700000, .i32⟩
  | .hbm, ⟨113, _⟩ => ⟨S1700000, .i32⟩
  | .hbm, ⟨114, _⟩ => ⟨S1700000, .i32⟩
  | .hbm, ⟨115, _⟩ => ⟨S1700000x1, .i32⟩
  | .hbm, ⟨116, _⟩ => ⟨S1700000x40, .f32⟩
  | .hbm, ⟨117, _⟩ => ⟨S1700000x1, .f32⟩
  | .hbm, ⟨118, _⟩ => ⟨S1700000x40, .f32⟩
  | .hbm, ⟨119, _⟩ => ⟨S1700000x40, .f32⟩
  | .hbm, ⟨120, _⟩ => ⟨S_, .f32⟩
  | .hbm, ⟨121, _⟩ => ⟨S100000x40, .f32⟩
  | .hbm, ⟨122, _⟩ => ⟨S1700000x1, .i32⟩
  | .hbm, ⟨123, _⟩ => ⟨S100000x40, .f32⟩
  | .hbm, ⟨124, _⟩ => ⟨S1x40, .f32⟩
  | .hbm, ⟨125, _⟩ => ⟨S100000x40, .f32⟩
  | .hbm, ⟨126, _⟩ => ⟨S100000x40, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_12 : Ref sig .tc := ⟨.hbm, 85, rfl⟩
abbrev main_call2_v0 : Ref sig .tc := ⟨.hbm, 86, rfl⟩
abbrev main_call2_v1 : Ref sig .tc := ⟨.hbm, 87, rfl⟩
abbrev main_v60 : Ref sig .tc := ⟨.hbm, 88, rfl⟩
abbrev main_c_13 : Ref sig .tc := ⟨.hbm, 89, rfl⟩
abbrev main_v61 : Ref sig .tc := ⟨.hbm, 90, rfl⟩
abbrev main_v62 : Ref sig .tc := ⟨.hbm, 91, rfl⟩
abbrev main_c_14 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_c_15 : Ref sig .tc := ⟨.hbm, 98, rfl⟩
abbrev main_v68 : Ref sig .tc := ⟨.hbm, 99, rfl⟩
abbrev main_v69 : Ref sig .tc := ⟨.hbm, 100, rfl⟩
abbrev main_c_16 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_c_17 : Ref sig .tc := ⟨.hbm, 108, rfl⟩
abbrev main_v76 : Ref sig .tc := ⟨.hbm, 109, rfl⟩
abbrev main_v77 : Ref sig .tc := ⟨.hbm, 110, rfl⟩
abbrev main_c_18 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_19 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  dot_S100000x512_S512x128_S100000x128_1_0_0_1_n_n_wf : DotDims.WF S100000x512 S512x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x40_S100000x40_1_0_0_1_n_n_wf : DotDims.WF S100000x128 S128x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.Spec.lean ====
/-
  The two-layer graph convolution both programs compute, as one function of the argument arrays.

  The edge list `e` (two rows of E = 1600000 node numbers) is extended by one self-loop per node: `srcOf e` and
  `dstOf e` are the sources and the destinations of the E + N edges, N = 100000. The in-degree of a node is the
  number of extended edges ending at it (a scatter-add of ones); `disOf` is its inverse square root where the
  degree is positive and zero elsewhere; an edge's weight `normOf` is the product of that number at its two ends
  (node numbers below zero are read from the end of the table, as the host's indexing does: `wrapIdx`).
  One aggregation step `agg` takes a feature matrix `h` with one row per node and returns, for every node, the sum over
  the extended edges ending at it of the source's row times the edge's weight (gather, scale, scatter-add into zeros).
  The network: `hidden = max (agg ((x ∘ mask) · W1) + b1, 0)`, `out = agg (hidden · W2) + b2`.

  Every operation is spelt as the host program spells it, over the reference program's shapes and dimension records, so
  that the reference's result term is `out` of its arguments by unfolding.
-/
import proofs.«169555_j86535001079836_1_alg».proof.ReferenceIdeal

noncomputable section

namespace Cert.Gcn

open Idealize.ShloMosaic Cert.ReferenceIdeal Cert.ReferenceIdeal.Facts₀ Cert.ReferenceIdeal.Facts

variable {F : FTy → Type} [FloatOps F] [Cert.ReferenceIdeal.Facts]

/-- The sources of the extended edges: the first row of the edge list, then every node once. -/
def srcOf (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The destinations of the extended edges: the second row of the edge list, then every node once. -/
def dstOf (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- Node numbers as a column of row indices into a table of N rows, a number below zero counted from the end. -/
def wrapIdx (s : (⟨S1700000, .i32⟩ : BufTy).Contents (Elt F)) : (⟨S1700000x1, .i32⟩ : BufTy).Contents (Elt F) :=
  broadcastInDim S1700000x1 ![0] bcast_S1700000_S1700000x1_0 (select (cmpi .slt s (broadcastInDim S1700000 ![] bcast_S_S1700000 (constantI S_ 32 0#32))) (addi s (broadcastInDim S1700000 ![] bcast_S_S1700000 (constantI S_ 32 100000#32))) s)

/-- A node's in-degree over the extended edges: ones added at the destinations. -/
def degOf (d : (⟨S1700000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 d) (broadcastInDim S1700000 ![] bcast_S_S1700000 (constant S_ .f32 0x3F800000#32))

/-- The inverse square root of the degree where it is positive, zero elsewhere. -/
def disOf (d : (⟨S1700000, .i32⟩ : BufTy).Contents (Elt F)) : (⟨S100000, .f32⟩ : BufTy).Contents (Elt F) :=
  select (cmpf (F := F) .ogt (degOf (F := F) d) (broadcastInDim S100000 ![] bcast_S_S100000 (constant S_ .f32 0x00000000#32))) (Host.rsqrt (degOf (F := F) d)) (broadcastInDim S100000 ![] bcast_S_S100000 (id (constant S_ .f32 0x00000000#32)))

/-- An extended edge's weight: the product of `disOf` at its source and at its destination. -/
def normOf (s d : (⟨S1700000, .i32⟩ : BufTy).Contents (Elt F)) : (⟨S1700000, .f32⟩ : BufTy).Contents (Elt F) :=
  mulf (Host.gather gather_S100000_S1700000x1_S1700000_n_0_n_n_0_1_1 (disOf (F := F) d) (wrapIdx (F := F) s)) (Host.gather gather_S100000_S1700000x1_S1700000_n_0_n_n_0_1_1 (disOf (F := F) d) (wrapIdx (F := F) d))

/-- One aggregation step on 128 features per node: row `src` of `h` times the edge's weight, added at `dst`. -/
def agg128 (s d : (⟨S1700000, .i32⟩ : BufTy).Contents (Elt F)) (w : (⟨S1700000, .f32⟩ : BufTy).Contents (Elt F)) (h : (⟨S100000x128, .f32⟩ : BufTy).Contents (Elt F)) : (⟨S100000x128, .f32⟩ : BufTy).Contents (Elt F) :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 d) (mulf (Host.gather gather_S100000x128_S1700000x1_S1700000x128_1_0_n_n_0_1_1128 h (wrapIdx (F := F) s)) (broadcastInDim S1700000x128 ![0, 1] bcast_S1700000x1_S1700000x128_0_1 (broadcastInDim S1700000x1 ![0] bcast_S1700000_S1700000x1_0 w)))

/-- The same step on 40 features per node. -/
def agg40 (s d : (⟨S1700000, .i32⟩ : BufTy).Contents (Elt F)) (w : (⟨S1700000, .f32⟩ : BufTy).Contents (Elt F)) (h : (⟨S100000x40, .f32⟩ : BufTy).Contents (Elt F)) : (⟨S100000x40, .f32⟩ : BufTy).Contents (Elt F) :=
  Host.scatterAdd scatter_S100000x40_S1700000x1_S1700000x40_1_0_0_1 (broadcastInDim S100000x40 ![] bcast_S_S100000x40 (constant S_ .f32 0x00000000#32)) (broadcastInDim S1700000x1 ![0] bcast_S1700000_S1700000x1_0 d) (mulf (Host.gather gather_S100000x40_S1700000x1_S1700000x40_1_0_n_n_0_1_140 h (wrapIdx (F := F) s)) (broadcastInDim S1700000x40 ![0, 1] bcast_S1700000x1_S1700000x40_0_1 (broadcastInDim S1700000x1 ![0] bcast_S1700000_S1700000x1_0 w)))

/-- The first layer's linear part: the masked input times the first weight matrix. -/
def lin1 (x mask : (⟨S100000x512, .f32⟩ : BufTy).Contents (Elt F)) (w1 : (⟨S512x128, .f32⟩ : BufTy).Contents (Elt F)) : (⟨S100000x128, .f32⟩ : BufTy).Contents (Elt F) :=
  Host.dotGeneral dot_S100000x512_S512x128_S100000x128_1_0_0_1_n_n none (mulf x mask) w1

/-- A row added to every row of a matrix, then the positive part. -/
def biasReluRow (a : (⟨S100000x128, .f32⟩ : BufTy).Contents (Elt F)) (row : (⟨S1x128, .f32⟩ : BufTy).Contents (Elt F)) : (⟨S100000x128, .f32⟩ : BufTy).Contents (Elt F) :=
  maximumf (addf a (broadcastInDim S100000x128 ![0, 1] bcast_S1x128_S100000x128_0_1 row)) (broadcastInDim S100000x128 ![] bcast_S_S100000x128 (constant S_ .f32 0x00000000#32))

/-- Bias added to every row, then the positive part. -/
def biasRelu (a : (⟨S100000x128, .f32⟩ : BufTy).Contents (Elt F)) (b1 : (⟨S128, .f32⟩ : BufTy).Contents (Elt F)) : (⟨S100000x128, .f32⟩ : BufTy).Contents (Elt F) :=
  biasReluRow a (broadcastInDim S1x128 ![1] bcast_S128_S1x128_1 b1)

/-- The second layer's linear part. -/
def lin2 (h : (⟨S100000x128, .f32⟩ : BufTy).Contents (Elt F)) (w2 : (⟨S128x40, .f32⟩ : BufTy).Contents (Elt F)) : (⟨S100000x40, .f32⟩ : BufTy).Contents (Elt F) :=
  Host.dotGeneral dot_S100000x128_S128x40_S100000x40_1_0_0_1_n_n none h w2

/-- The last bias added to every row. -/
def addBias2 (a : (⟨S100000x40, .f32⟩ : BufTy).Contents (Elt F)) (b2 : (⟨S40, .f32⟩ : BufTy).Contents (Elt F)) : (⟨S100000x40, .f32⟩ : BufTy).Contents (Elt F) :=
  addf a (broadcastInDim S100000x40 ![0, 1] bcast_S1x40_S100000x40_0_1 (broadcastInDim S1x40 ![1] bcast_S40_S1x40_1 b2))

/-- The network's result from the argument arrays. -/
def out (x mask : (⟨S100000x512, .f32⟩ : BufTy).Contents (Elt F)) (w1 : (⟨S512x128, .f32⟩ : BufTy).Contents (Elt F)) (b1 : (⟨S128, .f32⟩ : BufTy).Contents (Elt F))
    (w2 : (⟨S128x40, .f32⟩ : BufTy).Contents (Elt F)) (b2 : (⟨S40, .f32⟩ : BufTy).Contents (Elt F)) (e : (⟨S2x1600000, .i32⟩ : BufTy).Contents (Elt F)) : (⟨S100000x40, .f32⟩ : BufTy).Contents (Elt F) :=
  addBias2 (agg40 (srcOf (F := F) e) (dstOf (F := F) e) (normOf (F := F) (srcOf (F := F) e) (dstOf (F := F) e))
    (lin2 (biasRelu (agg128 (srcOf (F := F) e) (dstOf (F := F) e) (normOf (F := F) (srcOf (F := F) e) (dstOf (F := F) e)) (lin1 x mask w1)) b1) w2)) b2

end Cert.Gcn

end
-- ==== Proof.RefValue.lean ====
/-
  The reference program computes the network: its result term, every operation composed from the argument arrays,
  is `Cert.Gcn.out` of the arguments (the same operations, grouped; the reference computes the edge weights twice, once
  per layer, from the same edge list, and both copies are the one `normOf`). So every weakly fair execution of the
  reference ends with its result array at `out` of the argument arrays as launched, the arguments unchanged.
-/
import proofs.«169555_j86535001079836_1_alg».proof.Proof.RefRun
import proofs.«169555_j86535001079836_1_alg».proof.Proof.Spec

noncomputable section

namespace Cert.Gcn

open Idealize.ShloMosaic Idealize.ShloMosaic.TcCoe Idealize.SL.Sem Cert.ReferenceIdeal Cert.ReferenceIdeal.Gen

variable {F : FTy → Type} [FloatOps F]

set_option maxRecDepth 8192 in
/-- The reference's composed result term is the network's function of the arguments. -/
theorem ref_term_eq (m : (ℓ : Loc nD τ sig) → Buf (Elt F) ℓ) (c : Dev nD) :
    Cert.ReferenceIdeal.ValueP.res_main_v91 m c
      = out (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  unfold Cert.ReferenceIdeal.ValueP.res_main_v91
  rfl

end Cert.Gcn

end
-- ==== Proof.LibKeeps.lean ====
/-
  A straight line of host operations leaves every buffer it does not write as it was. Which buffers a line writes is
  read off the line itself: each operation writes exactly its result reference. The tactic below proves, for a literal
  line `ops` and a literal list `W` of references, that every operation's written set lies inside `W`; the library's
  `StableHlo.after_of_writes_sub` then gives `after ops V b = V b` for any reference `b` outside `W`
  (membership in `W` is decided over references).
-/
import Idealize.ShloMosaic.Lib.StableHlo.Run

open Idealize.ShloMosaic

/-- Closes `ops.Forall fun op => op.writes ⊆ (W.map (Proc.devRef .tc)).toFinset` for a literal line `ops` (named by the
    identifier given, so that it can be unfolded) of the library's operation builders and a literal list `W` holding
    every result reference of the line: the conjunction is split, each builder's written set is the singleton of its
    result reference, and that reference is found in `W` by `decide`. -/
macro "host_writes" ops:ident : tactic =>
  `(tactic| (simp only [$ops:ident, List.Forall]
             repeat' apply And.intro
             all_goals
               (simp only [StableHlo.nullary_writes, StableHlo.unary_writes, StableHlo.binary_writes, StableHlo.ternary_writes,
                  StableHlo.quaternary_writes, StableHlo.reshape_writes, StableHlo.binaryIndexed_writes,
                  StableHlo.unaryIndexed_writes, StableHlo.nary_writes, Finset.singleton_subset_iff, List.mem_toFinset]
                exact List.mem_map_of_mem (by decide))))
-- ==== Proof.Stretches.lean ====
/-
  The kernel program's host operations, stretch by stretch, as functions of the buffer contents `V` they start from.

  * The three stretches before the first kernel region compute, from the edge list, the sources and the destinations of
    the extended edges and the edge weights (`srcOf`, `dstOf`, `normOf`), and write no argument array.
  * The stretch between the first and the second region aggregates the first region's result (`agg128`) and recasts the
    first bias as a one-row matrix; it writes none of the sources, destinations, weights or later arguments.
  * The last stretch aggregates the third region's result (`agg40`) and adds the second bias: the program's result.
  The operations are the reference's, letter for letter, over the kernel program's own shape names and dimension records,
  which are the same literals: each equation closes by unfolding.
-/
import proofs.«169555_j86535001079836_1_alg».proof.Proof.Gen.KernelIdeal.Launch
import proofs.«169555_j86535001079836_1_alg».proof.Proof.Gen.ReferenceIdeal
import proofs.«169555_j86535001079836_1_alg».proof.Proof.Spec
import proofs.«169555_j86535001079836_1_alg».proof.Proof.LibKeeps
import Idealize.ShloMosaic.Lib.StableHlo.Run

set_option maxRecDepth 16384

noncomputable section

namespace Cert.Gcn.Stretches

open Idealize.ShloMosaic Idealize.ShloMosaic.TcCoe Idealize.SL.Sem Idealize.ShloMosaic.StableHlo
open Cert.KernelIdeal Cert.KernelIdeal.Gen

variable {F : FTy → Type} [FloatOps F]
variable (V : Valuation τ sig (Elt F))

/-! ## What each stretch computes -/

set_option maxHeartbeats 4000000 in
/-- The last stretch: the aggregation of the third region's result, plus the second bias. -/
theorem tail_result :
    after hostOps3 V (Proc.devRef .tc main_v62)
      = Cert.Gcn.addBias2 (F := F)
          (Cert.Gcn.agg40 (F := F) (V (Proc.devRef .tc main_v5)) (V (Proc.devRef .tc main_v6)) (V (Proc.devRef .tc main_v29))
            (V (Proc.devRef .tc main_v46)))
          (V (Proc.devRef .tc main_arg5)) := by
  unfold hostOps3
  after_results_simp
  rfl

set_option maxHeartbeats 4000000 in
/-- The middle stretch: the aggregation of the first region's result. -/
theorem mid_agg :
    after hostOps1 V (Proc.devRef .tc main_v43)
      = Cert.Gcn.agg128 (F := F) (V (Proc.devRef .tc main_v5)) (V (Proc.devRef .tc main_v6)) (V (Proc.devRef .tc main_v29))
          (V (Proc.devRef .tc main_v30)) := by
  unfold hostOps1
  after_results_simp
  rfl

set_option maxHeartbeats 4000000 in
/-- The middle stretch: the first bias as a one-row matrix. -/
theorem mid_row :
    after hostOps1 V (Proc.devRef .tc main_v44)
      = shapeCast S1x128 (V (Proc.devRef .tc main_arg3) : (⟨S128, .f32⟩ : BufTy).Contents (Elt F)) Facts₀.shapeCasts_S128_S1x128 := by
  unfold hostOps1
  after_results_simp
  rfl

set_option maxHeartbeats 4000000 in
/-- The first stretches: the sources of the extended edges. -/
theorem head_src :
    after hostOps0_2 (after hostOps0_1 (after hostOps0 V)) (Proc.devRef .tc main_v5)
      = Cert.Gcn.srcOf (F := F) (V (Proc.devRef .tc main_arg6)) := by
  unfold hostOps0_2 hostOps0_1 hostOps0
  after_results_simp
  rfl

set_option maxHeartbeats 4000000 in
/-- The first stretches: the destinations of the extended edges. -/
theorem head_dst :
    after hostOps0_2 (after hostOps0_1 (after hostOps0 V)) (Proc.devRef .tc main_v6)
      = Cert.Gcn.dstOf (F := F) (V (Proc.devRef .tc main_arg6)) := by
  unfold hostOps0_2 hostOps0_1 hostOps0
  after_results_simp
  rfl

set_option maxHeartbeats 8000000 in
/-- The first stretches: the edge weights. -/
theorem head_norm :
    after hostOps0_2 (after hostOps0_1 (after hostOps0 V)) (Proc.devRef .tc main_v29)
      = Cert.Gcn.normOf (F := F) (Cert.Gcn.srcOf (F := F) (V (Proc.devRef .tc main_arg6))) (Cert.Gcn.dstOf (F := F) (V (Proc.devRef .tc main_arg6))) := by
  unfold hostOps0_2 hostOps0_1 hostOps0
  after_results_simp
  rfl

/-! ## What each stretch leaves alone -/

theorem writes0 : (hostOps0 : List (HloOp τ sig (Elt F))).Forall fun op =>
    op.writes ⊆ (([main_v0, main_v1, main_v2, main_v3, main_v4, main_v5, main_v6, main_cst, main_v7, main_cst_0, main_v8, main_v9, main_v10, main_cst_1, main_v11, main_v12, main_v13, main_cst_2] : List (Ref sig .tc)).map (Proc.devRef (τ := τ) .tc)).toFinset := by
  host_writes hostOps0

theorem writes0_1 : (hostOps0_1 : List (HloOp τ sig (Elt F))).Forall fun op =>
    op.writes ⊆ (([main_call0_v0, main_call0_v1, main_v14] : List (Ref sig .tc)).map (Proc.devRef (τ := τ) .tc)).toFinset := by
  host_writes hostOps0_1

theorem writes0_2 : (hostOps0_2 : List (HloOp τ sig (Elt F))).Forall fun op =>
    op.writes ⊆ (([main_c, main_v15, main_v16, main_c_3, main_v17, main_v18, main_v19, main_v20, main_v21, main_c_4, main_v22, main_v23, main_c_5, main_v24, main_v25, main_v26, main_v27, main_v28, main_v29] : List (Ref sig .tc)).map (Proc.devRef (τ := τ) .tc)).toFinset := by
  host_writes hostOps0_2

theorem writes1 : (hostOps1 : List (HloOp τ sig (Elt F))).Forall fun op =>
    op.writes ⊆ (([main_c_6, main_v31, main_v32, main_c_7, main_v33, main_v34, main_v35, main_v36, main_v37, main_v38, main_v39, main_v40, main_cst_8, main_v41, main_v42, main_v43, main_v44] : List (Ref sig .tc)).map (Proc.devRef (τ := τ) .tc)).toFinset := by
  host_writes hostOps1

/-- A buffer none of the first three stretches writes is as it was. -/
theorem head_keeps (r : Ref sig .tc)
    (h0 : r ∉ ([main_v0, main_v1, main_v2, main_v3, main_v4, main_v5, main_v6, main_cst, main_v7, main_cst_0, main_v8, main_v9, main_v10, main_cst_1, main_v11, main_v12, main_v13, main_cst_2] : List (Ref sig .tc)))
    (h1 : r ∉ ([main_call0_v0, main_call0_v1, main_v14] : List (Ref sig .tc)))
    (h2 : r ∉ ([main_c, main_v15, main_v16, main_c_3, main_v17, main_v18, main_v19, main_v20, main_v21, main_c_4, main_v22, main_v23, main_c_5, main_v24, main_v25, main_v26, main_v27, main_v28, main_v29] : List (Ref sig .tc))) :
    after hostOps0_2 (after hostOps0_1 (after hostOps0 V)) (Proc.devRef .tc r) = V (Proc.devRef .tc r) :=
  (after_of_writes_sub hostOps0_2 _ writes0_2 h2).trans
    ((after_of_writes_sub hostOps0_1 _ writes0_1 h1).trans (after_of_writes_sub hostOps0 V writes0 h0))

/-- A buffer the middle stretch does not write is as it was. -/
theorem mid_keeps (r : Ref sig .tc)
    (h : r ∉ ([main_c_6, main_v31, main_v32, main_c_7, main_v33, main_v34, main_v35, main_v36, main_v37, main_v38, main_v39, main_v40, main_cst_8, main_v41, main_v42, main_v43, main_v44] : List (Ref sig .tc))) :
    after hostOps1 V (Proc.devRef .tc r) = V (Proc.devRef .tc r) :=
  after_of_writes_sub hostOps1 V writes1 h

end Cert.Gcn.Stretches

end
-- ==== Proof.LibTiles.lean ====
/-
  Two-dimensional tiles over the extended reals, read entry by entry.

  * a product of an m×k tile by a k×n tile accumulated into the zero tile: entry (a, b) is the sum over the contracted
    coordinate of the products of the entries;
  * a column (an m×1 tile) laid across n columns: entry (a, b) is the column's entry a;
  * a row (a 1×n tile) laid down m rows: entry (a, b) is the row's entry b.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibTiles

open Idealize.ShloMosaic Idealize.ShloMosaic.ValueIdx

variable {m n : Nat}

/-- The product of an m×k tile by a k×n tile (left operand contracted on its columns, right operand on its rows, no
    batch axes), accumulated into the zero tile, read at entry (a, b): the sum over the contracted coordinate `c` of
    `A (a, c) * B (c, b)`. `w` is the well-formedness of the dimension numbers, which a program states. -/
theorem matmul_zero_apply {k : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B
        (constant (F := Ideal) ⟨2, ![m, n]⟩ .f32 0x00000000#32) (ix2 a b)
      = ∑ c : Fin k, A (ix2 a c) * B (ix2 c b) := by
  show FloatOps.matmul _ prec A B (constant (F := Ideal) ⟨2, ![m, n]⟩ .f32 0x00000000#32) (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A column laid across the columns of an m×n tile, read at entry (a, b): the column's entry `a`. -/
theorem broadcast_col_apply {α : Type} (x : (⟨2, ![m, 1]⟩ : Shape).Idx → α)
    (h : (⟨2, ![m, 1]⟩ : Shape).Broadcasts ⟨2, ![m, n]⟩) (a : Fin m) (b : Fin n) :
    broadcastTo ⟨2, ![m, n]⟩ x h (ix2 a b) = x (ix2 a (0 : Fin 1)) := by
  refine broadcastTo_apply x h (ix2 a b) (ix2 a (0 : Fin 1)) ?_
  intro ax
  match ax with
  | ⟨0, _⟩ =>
    show a.val = if m = 1 then 0 else a.val
    split
    · have := a.isLt; omega
    · rfl
  | ⟨1, _⟩ => rfl

/-- A row laid down the rows of an m×n tile, read at entry (a, b): the row's entry `b`. -/
theorem broadcast_row_apply {α : Type} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 (0 : Fin 1) b) := by
  refine broadcastTo_apply x h (ix2 a b) (ix2 (0 : Fin 1) b) ?_
  intro ax
  match ax with
  | ⟨0, _⟩ => rfl
  | ⟨1, _⟩ =>
    show b.val = if n = 1 then 0 else b.val
    split
    · have := b.isLt; omega
    · rfl

end Cert.LibTiles

end
-- ==== Proof.LibHostDot.lean ====
/-
  The host's matrix product over the extended reals, read entry by entry.

  A product of an m×k matrix by a k×n matrix (left operand contracted on its columns, right operand on its rows, no
  batch axes) has at entry (a, b) the sum over the contracted coordinate `c` of `A (a, c) * B (c, b)`: the host's
  product and a tile product accumulated into the zero tile are the same sum over the dimension record's contraction
  index, and the tile product is read in `Cert.LibTiles`.
-/
import proofs.«169555_j86535001079836_1_alg».proof.Proof.LibTiles

noncomputable section

namespace Cert.LibHostDot

open Idealize.ShloMosaic Idealize.ShloMosaic.ValueIdx

variable {m n k : Nat} {φ₁ φ₂ : FTy}

/-- The host's product read at entry (a, b). -/
theorem hostDot_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims _ _ _) prec A B (ix2 a b)
      = ∑ c : Fin k, A (ix2 a c) * B (ix2 c b) :=
  ((Ideal.dotGeneral_apply (⟨[1], [0], [0], [1], [], [], w⟩ : DotDims _ _ _) prec .single A B (ix2 a b)).trans
    (Ideal.matmul_constant_zero_apply (⟨[1], [0], [0], [1], [], [], w⟩ : DotDims _ _ _) prec A B (ix2 a b)).symm).trans
    (Cert.LibTiles.matmul_zero_apply w prec A B a b)

end Cert.LibHostDot

end
-- ==== Proof.SpecRead.lean ====
/-
  The network's dense pieces over the extended reals, read entry by entry.

  * `lin1 x mask w` at (r, q) is the sum over k of `(x (r, k) * mask (r, k)) * w (k, q)`;
  * `lin2 h w` at (r, q) is the sum over k of `h (r, k) * w (k, q)`;
  * `biasReluRow a row` at (r, q) is the larger of `a (r, q) + row (0, q)` and zero (the zero kept as its word);
  * a vector of 128 entries recast as a one-row matrix is the same vector laid along the second axis.
-/
import proofs.«169555_j86535001079836_1_alg».proof.Proof.Spec
import proofs.«169555_j86535001079836_1_alg».proof.Proof.LibHostDot
import Idealize.ShloMosaic.Lib.Pipeline.Value
import Idealize.ShloMosaic.Lib.ValueIdx

noncomputable section

namespace Cert.Gcn

open Idealize.ShloMosaic Idealize.ShloMosaic.ValueIdx Cert.ReferenceIdeal Cert.ReferenceIdeal.Facts₀ Cert.ReferenceIdeal.Facts

variable [Cert.ReferenceIdeal.Facts]

/-- The first layer's linear part at an entry. -/
theorem lin1_apply (x mask : (⟨S100000x512, .f32⟩ : BufTy).Contents (Elt Ideal)) (w : (⟨S512x128, .f32⟩ : BufTy).Contents (Elt Ideal)) (r : Fin 100000) (q : Fin 128) :
    lin1 (F := Ideal) x mask w (ix2 r q) = ∑ k : Fin 512, (x (ix2 r k) * mask (ix2 r k)) * w (ix2 k q) :=
  Cert.LibHostDot.hostDot_apply Facts₀.dot_S100000x512_S512x128_S100000x128_1_0_0_1_n_n_wf none (mulf x mask) w r q

/-- The second layer's linear part at an entry. -/
theorem lin2_apply (h : (⟨S100000x128, .f32⟩ : BufTy).Contents (Elt Ideal)) (w : (⟨S128x40, .f32⟩ : BufTy).Contents (Elt Ideal)) (r : Fin 100000) (q : Fin 40) :
    lin2 (F := Ideal) h w (ix2 r q) = ∑ k : Fin 128, h (ix2 r k) * w (ix2 k q) :=
  Cert.LibHostDot.hostDot_apply Facts₀.dot_S100000x128_S128x40_S100000x40_1_0_0_1_n_n_wf none h w r q

/-- A row added to every row, then the positive part, at an entry. -/
theorem biasReluRow_apply (a : (⟨S100000x128, .f32⟩ : BufTy).Contents (Elt Ideal)) (row : (⟨S1x128, .f32⟩ : BufTy).Contents (Elt Ideal)) (r : Fin 100000) (q : Fin 128) :
    biasReluRow (F := Ideal) a row (ix2 r q) = max (a (ix2 r q) + row (ix2 (0 : Fin 1) q)) (Ideal.ofBits .f32 0x00000000#32) := by
  unfold biasReluRow
  show max (a (ix2 r q) + broadcastInDim S100000x128 ![0, 1] bcast_S1x128_S100000x128_0_1 row (ix2 r q))
      (broadcastInDim S100000x128 ![] bcast_S_S100000x128 (constant (F := Ideal) S_ .f32 0x00000000#32) (ix2 r q)) = _
  rw [broadcastInDim_apply ![0, 1] bcast_S1x128_S100000x128_0_1 row (ix2 r q) (ix2 (0 : Fin 1) q) (fun ax => by
        match ax with
        | ⟨0, _⟩ => rfl
        | ⟨1, _⟩ => rfl),
    broadcastInDim_apply ![] bcast_S_S100000x128 (constant (F := Ideal) S_ .f32 0x00000000#32) (ix2 r q) (fun ax => ax.elim0) (fun ax => ax.elim0)]
  rfl

/-- A vector recast as a one-row matrix is the vector laid along the second axis. -/
theorem row_forms (b1 : (⟨S128, .f32⟩ : BufTy).Contents (Elt Ideal)) (h : S128.ShapeCasts S1x128) :
    shapeCast S1x128 b1 h = broadcastInDim S1x128 ![1] bcast_S128_S1x128_1 b1 := by
  funext j
  rw [shapeCast_addUnit_apply ![128] b1 h j,
    broadcastInDim_apply ![1] bcast_S128_S1x128_1 b1 j (fun ax => j ax.succ) (fun ax => by
      match ax with
      | ⟨0, _⟩ => rfl)]

end Cert.Gcn

end
-- ==== Proof.Region0.lean ====
/-
  The first kernel region, as a function of the arrays it finds.

  The region walks fifty blocks of 2000 rows. At point `t` the body multiplies rows `2000 t … 2000 t + 1999` of the input by the
  same rows of the mask, entry by entry, and takes the tile product of that block with the whole first weight matrix
  into a zero tile: entry (p, q) of what it stores is the sum over k of `(x (2000 t + p, k) * mask (2000 t + p, k)) * w1 (k, q)`
  (the changes of float format in between are the identity on extended reals). That is entry (2000 t + p, q) of the
  host's product `lin1 x mask w1`, so what point `t` writes back is block `t` of that one matrix; the fifty blocks tile the
  result array (row r lies in block r / 2000), so the array ends at `lin1` of the arrays the region finds.
-/
import proofs.«169555_j86535001079836_1_alg».proof.Proof.Gen.KernelIdeal.Frame
import proofs.«169555_j86535001079836_1_alg».proof.Proof.Gen.ReferenceIdeal
import proofs.«169555_j86535001079836_1_alg».proof.Proof.SpecRead
import Idealize.ShloMosaic.Lib.Pipeline.Value
import Idealize.ShloMosaic.Lib.ValueIdx

set_option maxRecDepth 16384

noncomputable section

namespace Cert.Gcn.Region0

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Facts₀

variable (V : (c : Dev nD) → (b : Ref sig .tc) → Buf (Elt Ideal) ((c : Thread nD τ).loc b))

theorem hz : (![0, 0] : Fin 2 → Nat) = fun _ => 0 := funext fun a => by fin_cases a <;> rfl

/-- The body's stored tile at entry (a, b): the masked block times the weight matrix. -/
theorem tile_apply (x0 x1 : Vec Ideal S2000x512 .f32) (x2 : Vec Ideal S512x128 .f32) (a : Fin 2000) (b : Fin 128) :
    k0_pay1 (F := Ideal) x0 x1 x2 (ix2 a b) = ∑ k : Fin 512, (x0 (ix2 a k) * x1 (ix2 a k)) * x2 (ix2 k b) := by
  unfold k0_pay1
  exact Cert.LibTiles.matmul_zero_apply Facts₀.dot_S2000x512_S512x128_S2000x128_1_0_0_1_n_n_wf none _ _ a b

/-- If the three loaded blocks are rows `2000 tv …` of `X` and of `M` and the whole of `W`, the stored tile at (p, q) is
    `lin1 X M W` at row `2000 tv + p`. -/
theorem point_eq (x0 x1 : Vec Ideal S2000x512 .f32) (x2 : Vec Ideal S512x128 .f32)
    (X M : (⟨Cert.ReferenceIdeal.S100000x512, .f32⟩ : BufTy).Contents (Elt Ideal)) (W : (⟨Cert.ReferenceIdeal.S512x128, .f32⟩ : BufTy).Contents (Elt Ideal)) (tv : Nat)
    (h0 : ∀ (p : Fin 2000) (k : Fin 512) (r : Fin 100000), r.val = 2000 * tv + p.val → x0 (ix2 p k) = X (ix2 r k))
    (h1 : ∀ (p : Fin 2000) (k : Fin 512) (r : Fin 100000), r.val = 2000 * tv + p.val → x1 (ix2 p k) = M (ix2 r k))
    (h2 : ∀ (k : Fin 512) (q : Fin 128), x2 (ix2 k q) = W (ix2 k q))
    (p : Fin 2000) (q : Fin 128) (r : Fin 100000) (hr : r.val = 2000 * tv + p.val) :
    k0_pay1 (F := Ideal) x0 x1 x2 (ix2 p q) = Cert.Gcn.lin1 (F := Ideal) X M W (ix2 r q) := by
  rw [tile_apply, Cert.Gcn.lin1_apply]
  refine Finset.sum_congr rfl fun k _ => ?_
  rw [h0 p k r hr, h1 p k r hr, h2 k q]

/-- The block indices of the four windows at every grid point: the row blocks move with the point, the weight matrix stays. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The input's block at point `t` is rows `2000 t …` of the input array. -/
theorem blk0_apply (c : Dev nD) (t : Fin cfg0.N) (p : Fin 2000) (k : Fin 512) (r : Fin 100000) (hr : r.val = 2000 * t.val + p.val) :
    (iblk0 V c 0 t : Vec Ideal S2000x512 .f32) (ix2 p k) = (V c main_arg0 : S100000x512.Idx → Elt Ideal .f32) (ix2 r k) := by
  unfold iblk0
  rw [View.read_apply]
  show V c main_arg0 _ = V c main_arg0 _
  congr 1
  funext a
  apply Fin.ext
  match a with
  | ⟨0, _⟩ => show win0_0.index t 0 * 2000 + 1 * p.val = r.val; rw [(idx0 t).1, hr]; omega
  | ⟨1, _⟩ => show win0_0.index t 1 * 512 + 1 * k.val = k.val; rw [(idx0 t).2.1]; omega

/-- The mask's block at point `t` is the same rows of the mask array. -/
theorem blk1_apply (c : Dev nD) (t : Fin cfg0.N) (p : Fin 2000) (k : Fin 512) (r : Fin 100000) (hr : r.val = 2000 * t.val + p.val) :
    (iblk0 V c 1 t : Vec Ideal S2000x512 .f32) (ix2 p k) = (V c main_arg1 : S100000x512.Idx → Elt Ideal .f32) (ix2 r k) := by
  unfold iblk0
  rw [View.read_apply]
  show V c main_arg1 _ = V c main_arg1 _
  congr 1
  funext a
  apply Fin.ext
  match a with
  | ⟨0, _⟩ => show win0_1.index t 0 * 2000 + 1 * p.val = r.val; rw [(idx0 t).2.2.1, hr]; omega
  | ⟨1, _⟩ => show win0_1.index t 1 * 512 + 1 * k.val = k.val; rw [(idx0 t).2.2.2.1]; omega

/-- The weight matrix's block is the whole matrix at every point. -/
theorem blk2_apply (c : Dev nD) (t : Fin cfg0.N) (k : Fin 512) (q : Fin 128) :
    (iblk0 V c 2 t : Vec Ideal S512x128 .f32) (ix2 k q) = (V c main_arg2 : S512x128.Idx → Elt Ideal .f32) (ix2 k q) := by
  unfold iblk0
  rw [View.read_apply]
  show V c main_arg2 _ = V c main_arg2 _
  congr 1
  funext a
  apply Fin.ext
  match a with
  | ⟨0, _⟩ => show win0_2.index t 0 * 512 + 1 * k.val = k.val; rw [(idx0 t).2.2.2.2.1]; omega
  | ⟨1, _⟩ => show win0_2.index t 1 * 128 + 1 * q.val = q.val; rw [(idx0 t).2.2.2.2.2.1]; omega

/-- The first layer's linear part of the arrays the region finds. -/
abbrev G (c : Dev nD) : Buf (Elt Ideal) ((c : Thread nD τ).loc main_v30) :=
  Cert.Gcn.lin1 (F := Ideal) (V c main_arg0) (V c main_arg1) (V c main_arg2)

/-- What point `t` writes back is block `t` of `G`. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S2000x512) hz, View.ld_unit_zero (S := S512x128) hz]
  funext j
  obtain ⟨p, q, rfl⟩ : ∃ (p : Fin 2000) (q : Fin 128), j = ix2 p q := ⟨j 0, j 1, eq_ix2 j⟩
  have ht : t.val < 50 := Nat.lt_of_lt_of_eq t.isLt (show cfg0.N = 50 from N_0)
  have hp : p.val < 2000 := p.isLt
  have he : ((cfg0.win 3).blk t).view.emb (ix2 p q) = ix2 (⟨2000 * t.val + p.val, by omega⟩ : Fin 100000) q := by
    funext a
    apply Fin.ext
    match a with
    | ⟨0, _⟩ => show win0_3.index t 0 * 2000 + 1 * p.val = 2000 * t.val + p.val; rw [(idx0 t).2.2.2.2.2.2.1]; omega
    | ⟨1, _⟩ => show win0_3.index t 1 * 128 + 1 * q.val = q.val; rw [(idx0 t).2.2.2.2.2.2.2]; omega
  show k0_pay1 (F := Ideal) (iblk0 V c 0 t) (iblk0 V c 1 t) (iblk0 V c 2 t) (ix2 p q)
    = G V c (((cfg0.win 3).blk t).view.emb (ix2 p q))
  rw [he]
  exact point_eq (iblk0 V c 0 t) (iblk0 V c 1 t) (iblk0 V c 2 t) (V c main_arg0) (V c main_arg1) (V c main_arg2) t.val
    (fun p k r hr => blk0_apply V c t p k r hr) (fun p k r hr => blk1_apply V c t p k r hr)
    (fun k q => blk2_apply V c t k q) p q ⟨2000 * t.val + p.val, by omega⟩ rfl

/-- An index of the result array is in point `t`'s block iff each coordinate is in the block's range. -/
theorem mem_blk (t : Fin cfg0.N) (i : S100000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v30).slice (win0_3.rect t)).set ↔ _
  rw [View.set_slice_whole, Rect.mem_set_unit]
  exact Iff.rfl

/-- The region's result array ends at the first layer's linear part of the arrays it finds. -/
theorem final (c : Dev nD) : (dat0 V c).arrAt 3 cfg0.N = G V c :=
  (dat0 V c).arrAt_eq_of_cover 3 (G V c) (fun t _ => flushed_eq V c t) fun i => by
    have hi0 : (i 0).val < 100000 := (i 0).isLt
    have hi1 : (i 1).val < 128 := (i 1).isLt
    refine ⟨⟨(i 0).val / 2000, by rw [show cfg0.N = 50 from N_0]; omega⟩, flush0_3 _, ?_⟩
    rw [mem_blk]
    intro a
    match a with
    | ⟨0, _⟩ =>
      show win0_3.index _ 0 * 2000 ≤ (i 0).val ∧ (i 0).val < win0_3.index _ 0 * 2000 + 2000
      rw [(idx0 _).2.2.2.2.2.2.1]
      show (i 0).val / 2000 * 2000 ≤ (i 0).val ∧ (i 0).val < (i 0).val / 2000 * 2000 + 2000
      omega
    | ⟨1, _⟩ =>
      show win0_3.index _ 1 * 128 ≤ (i 1).val ∧ (i 1).val < win0_3.index _ 1 * 128 + 128
      rw [(idx0 _).2.2.2.2.2.2.2]
      omega

end Cert.Gcn.Region0

end
-- ==== Proof.Region1.lean ====
/-
  The second kernel region, as a function of the arrays it finds.

  The region walks twenty blocks of 5000 rows. At point `t` the body adds the one-row bias matrix to every row of rows
  `5000 t … 5000 t + 4999` of its input and keeps the larger of each entry and zero: entry (p, q) of what it stores is
  `max (a (5000 t + p, q) + row (0, q)) 0`, which is entry (5000 t + p, q) of `biasReluRow a row`. So what point `t` writes back
  is block `t` of that one matrix; the twenty blocks tile the result array (row r lies in block r / 5000), and the array ends
  at `biasReluRow` of the arrays the region finds.
-/
import proofs.«169555_j86535001079836_1_alg».proof.Proof.Gen.KernelIdeal.Frame
import proofs.«169555_j86535001079836_1_alg».proof.Proof.Gen.ReferenceIdeal
import proofs.«169555_j86535001079836_1_alg».proof.Proof.SpecRead
import Idealize.ShloMosaic.Lib.Pipeline.Value
import Idealize.ShloMosaic.Lib.ValueIdx

set_option maxRecDepth 16384

noncomputable section

namespace Cert.Gcn.Region1

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Facts₀

variable (V : (c : Dev nD) → (b : Ref sig .tc) → Buf (Elt Ideal) ((c : Thread nD τ).loc b))

theorem hz : (![0, 0] : Fin 2 → Nat) = fun _ => 0 := funext fun a => by fin_cases a <;> rfl

/-- The body's stored tile at entry (a, b): the block's entry plus the bias row's entry, or zero if that is larger. -/
theorem tile_apply (x0 : Vec Ideal S5000x128 .f32) (x1 : Vec Ideal S1x128 .f32) (a : Fin 5000) (b : Fin 128) :
    k1_pay1 (F := Ideal) x0 x1 (ix2 a b) = max (x0 (ix2 a b) + x1 (ix2 (0 : Fin 1) b)) (Ideal.ofBits .f32 0x00000000#32) := by
  unfold k1_pay1
  simp only [shapeCast_self]
  show max (x0 (ix2 a b) + broadcastTo S5000x128 x1 Facts₀.broadcasts_S1x128_S5000x128 (ix2 a b)) (Ideal.ofBits .f32 0x00000000#32) = _
  rw [Cert.LibTiles.broadcast_row_apply x1 Facts₀.broadcasts_S1x128_S5000x128 a b]

/-- If the loaded block is rows `5000 tv …` of `A` and the loaded row is `row`, the stored tile at (p, q) is
    `biasReluRow A row` at row `5000 tv + p`. -/
theorem point_eq (x0 : Vec Ideal S5000x128 .f32) (x1 : Vec Ideal S1x128 .f32)
    (A : (⟨Cert.ReferenceIdeal.S100000x128, .f32⟩ : BufTy).Contents (Elt Ideal)) (row : (⟨Cert.ReferenceIdeal.S1x128, .f32⟩ : BufTy).Contents (Elt Ideal)) (tv : Nat)
    (h0 : ∀ (p : Fin 5000) (k : Fin 128) (r : Fin 100000), r.val = 5000 * tv + p.val → x0 (ix2 p k) = A (ix2 r k))
    (h1 : ∀ (q : Fin 128), x1 (ix2 (0 : Fin 1) q) = row (ix2 (0 : Fin 1) q))
    (p : Fin 5000) (q : Fin 128) (r : Fin 100000) (hr : r.val = 5000 * tv + p.val) :
    k1_pay1 (F := Ideal) x0 x1 (ix2 p q) = Cert.Gcn.biasReluRow (F := Ideal) A row (ix2 r q) := by
  rw [tile_apply, Cert.Gcn.biasReluRow_apply, h0 p q r hr, h1 q]

/-- The block indices of the three windows at every grid point: the row blocks move with the point, the bias row stays. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The input's block at point `t` is rows `5000 t …` of the input array. -/
theorem blk0_apply (c : Dev nD) (t : Fin cfg1.N) (p : Fin 5000) (k : Fin 128) (r : Fin 100000) (hr : r.val = 5000 * t.val + p.val) :
    (iblk1 V c 0 t : Vec Ideal S5000x128 .f32) (ix2 p k) = (V c main_v43 : S100000x128.Idx → Elt Ideal .f32) (ix2 r k) := by
  unfold iblk1
  rw [View.read_apply]
  show V c main_v43 _ = V c main_v43 _
  congr 1
  funext a
  apply Fin.ext
  match a with
  | ⟨0, _⟩ => show win1_0.index t 0 * 5000 + 1 * p.val = r.val; rw [(idx1 t).1, hr]; omega
  | ⟨1, _⟩ => show win1_0.index t 1 * 128 + 1 * k.val = k.val; rw [(idx1 t).2.1]; omega

/-- The bias row's block is the whole one-row matrix at every point. -/
theorem blk1_apply (c : Dev nD) (t : Fin cfg1.N) (q : Fin 128) :
    (iblk1 V c 1 t : Vec Ideal S1x128 .f32) (ix2 (0 : Fin 1) q) = (V c main_v44 : S1x128.Idx → Elt Ideal .f32) (ix2 (0 : Fin 1) q) := by
  unfold iblk1
  rw [View.read_apply]
  show V c main_v44 _ = V c main_v44 _
  congr 1
  funext a
  apply Fin.ext
  match a with
  | ⟨0, _⟩ => show win1_1.index t 0 * 1 + 1 * 0 = 0; rw [(idx1 t).2.2.1]
  | ⟨1, _⟩ => show win1_1.index t 1 * 128 + 1 * q.val = q.val; rw [(idx1 t).2.2.2.1]; omega

/-- The bias added and the positive part taken, of the arrays the region finds. -/
abbrev G (c : Dev nD) : Buf (Elt Ideal) ((c : Thread nD τ).loc main_v45) :=
  Cert.Gcn.biasReluRow (F := Ideal) (V c main_v43) (V c main_v44)

/-- What point `t` writes back is block `t` of `G`. -/
theorem flushed_eq (c : Dev nD) (t : Fin cfg1.N) :
    (dat1 V c).flushed 2 t = ((cfg1.win 2).blk t).view.read (Elt Ideal) (G V c) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  funext j
  obtain ⟨p, q, rfl⟩ : ∃ (p : Fin 5000) (q : Fin 128), j = ix2 p q := ⟨j 0, j 1, eq_ix2 j⟩
  have ht : t.val < 20 := Nat.lt_of_lt_of_eq t.isLt (show cfg1.N = 20 from N_1)
  have hp : p.val < 5000 := p.isLt
  have he : ((cfg1.win 2).blk t).view.emb (ix2 p q) = ix2 (⟨5000 * t.val + p.val, by omega⟩ : Fin 100000) q := by
    funext a
    apply Fin.ext
    match a with
    | ⟨0, _⟩ => show win1_2.index t 0 * 5000 + 1 * p.val = 5000 * t.val + p.val; rw [(idx1 t).2.2.2.2.1]; omega
    | ⟨1, _⟩ => show win1_2.index t 1 * 128 + 1 * q.val = q.val; rw [(idx1 t).2.2.2.2.2]; omega
  show k1_pay1 (F := Ideal) (iblk1 V c 0 t) (iblk1 V c 1 t) (ix2 p q)
    = G V c (((cfg1.win 2).blk t).view.emb (ix2 p q))
  rw [he]
  exact point_eq (iblk1 V c 0 t) (iblk1 V c 1 t) (V c main_v43) (V c main_v44) t.val
    (fun p k r hr => blk0_apply V c t p k r hr) (fun q => blk1_apply V c t q) p q ⟨5000 * t.val + p.val, by omega⟩ rfl

/-- An index of the result array is in point `t`'s block iff each coordinate is in the block's range. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- The region's result array ends at `biasReluRow` of the arrays it finds. -/
theorem final (c : Dev nD) : (dat1 V c).arrAt 2 cfg1.N = G V c :=
  (dat1 V c).arrAt_eq_of_cover 2 (G V c) (fun t _ => flushed_eq V c t) fun i => by
    have hi0 : (i 0).val < 100000 := (i 0).isLt
    have hi1 : (i 1).val < 128 := (i 1).isLt
    refine ⟨⟨(i 0).val / 5000, by rw [show cfg1.N = 20 from N_1]; omega⟩, flush1_2 _, ?_⟩
    rw [mem_blk]
    intro a
    match a with
    | ⟨0, _⟩ =>
      show win1_2.index _ 0 * 5000 ≤ (i 0).val ∧ (i 0).val < win1_2.index _ 0 * 5000 + 5000
      rw [(idx1 _).2.2.2.2.1]
      show (i 0).val / 5000 * 5000 ≤ (i 0).val ∧ (i 0).val < (i 0).val / 5000 * 5000 + 5000
      omega
    | ⟨1, _⟩ =>
      show win1_2.index _ 1 * 128 ≤ (i 1).val ∧ (i 1).val < win1_2.index _ 1 * 128 + 128
      rw [(idx1 _).2.2.2.2.2]
      omega

end Cert.Gcn.Region1

end
-- ==== Proof.Region2.lean ====
/-
  The third kernel region, as a function of the arrays it finds.

  The region walks twenty blocks of 5000 rows. At point `t` the body takes the tile product of rows `5000 t … 5000 t + 4999` of
  its input with the whole second weight matrix into a zero tile: entry (p, q) of what it stores is the sum over k of
  `h (5000 t + p, k) * w2 (k, q)` (the changes of float format in between are the identity on extended reals), which is
  entry (5000 t + p, q) of the host's product `lin2 h w2`. So what point `t` writes back is block `t` of that one matrix; the
  twenty blocks tile the result array (row r lies in block r / 5000), and the array ends at `lin2` of the arrays the region finds.
-/
import proofs.«169555_j86535001079836_1_alg».proof.Proof.Gen.KernelIdeal.Frame
import proofs.«169555_j86535001079836_1_alg».proof.Proof.Gen.ReferenceIdeal
import proofs.«169555_j86535001079836_1_alg».proof.Proof.SpecRead
import Idealize.ShloMosaic.Lib.Pipeline.Value
import Idealize.ShloMosaic.Lib.ValueIdx

set_option maxRecDepth 16384

noncomputable section

namespace Cert.Gcn.Region2

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Facts₀

variable (V : (c : Dev nD) → (b : Ref sig .tc) → Buf (Elt Ideal) ((c : Thread nD τ).loc b))

theorem hz : (![0, 0] : Fin 2 → Nat) = fun _ => 0 := funext fun a => by fin_cases a <;> rfl

/-- The body's stored tile at entry (a, b): the block times the weight matrix. -/
theorem tile_apply (x0 : Vec Ideal S5000x128 .f32) (x1 : Vec Ideal S128x40 .f32) (a : Fin 5000) (b : Fin 40) :
    k2_pay1 (F := Ideal) x0 x1 (ix2 a b) = ∑ k : Fin 128, x0 (ix2 a k) * x1 (ix2 k b) := by
  unfold k2_pay1
  simp only [shapeCast_self]
  exact Cert.LibTiles.matmul_zero_apply Facts₀.dot_S5000x128_S128x40_S5000x40_1_0_0_1_n_n_wf none _ _ a b

/-- If the loaded block is rows `5000 tv …` of `H` and the loaded matrix is `W`, the stored tile at (p, q) is `lin2 H W` at row
    `5000 tv + p`. -/
theorem point_eq (x0 : Vec Ideal S5000x128 .f32) (x1 : Vec Ideal S128x40 .f32)
    (H : (⟨Cert.ReferenceIdeal.S100000x128, .f32⟩ : BufTy).Contents (Elt Ideal)) (W : (⟨Cert.ReferenceIdeal.S128x40, .f32⟩ : BufTy).Contents (Elt Ideal)) (tv : Nat)
    (h0 : ∀ (p : Fin 5000) (k : Fin 128) (r : Fin 100000), r.val = 5000 * tv + p.val → x0 (ix2 p k) = H (ix2 r k))
    (h1 : ∀ (k : Fin 128) (q : Fin 40), x1 (ix2 k q) = W (ix2 k q))
    (p : Fin 5000) (q : Fin 40) (r : Fin 100000) (hr : r.val = 5000 * tv + p.val) :
    k2_pay1 (F := Ideal) x0 x1 (ix2 p q) = Cert.Gcn.lin2 (F := Ideal) H W (ix2 r q) := by
  rw [tile_apply, Cert.Gcn.lin2_apply]
  refine Finset.sum_congr rfl fun k _ => ?_
  rw [h0 p k r hr, h1 k q]

/-- The block indices of the three windows at every grid point: the row blocks move with the point, the weight matrix stays. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The input's block at point `t` is rows `5000 t …` of the input array. -/
theorem blk0_apply (c : Dev nD) (t : Fin cfg2.N) (p : Fin 5000) (k : Fin 128) (r : Fin 100000) (hr : r.val = 5000 * t.val + p.val) :
    (iblk2 V c 0 t : Vec Ideal S5000x128 .f32) (ix2 p k) = (V c main_v45 : S100000x128.Idx → Elt Ideal .f32) (ix2 r k) := by
  unfold iblk2
  rw [View.read_apply]
  show V c main_v45 _ = V c main_v45 _
  congr 1
  funext a
  apply Fin.ext
  match a with
  | ⟨0, _⟩ => show win2_0.index t 0 * 5000 + 1 * p.val = r.val; rw [(idx2 t).1, hr]; omega
  | ⟨1, _⟩ => show win2_0.index t 1 * 128 + 1 * k.val = k.val; rw [(idx2 t).2.1]; omega

/-- The weight matrix's block is the whole matrix at every point. -/
theorem blk1_apply (c : Dev nD) (t : Fin cfg2.N) (k : Fin 128) (q : Fin 40) :
    (iblk2 V c 1 t : Vec Ideal S128x40 .f32) (ix2 k q) = (V c main_arg4 : S128x40.Idx → Elt Ideal .f32) (ix2 k q) := by
  unfold iblk2
  rw [View.read_apply]
  show V c main_arg4 _ = V c main_arg4 _
  congr 1
  funext a
  apply Fin.ext
  match a with
  | ⟨0, _⟩ => show win2_1.index t 0 * 128 + 1 * k.val = k.val; rw [(idx2 t).2.2.1]; omega
  | ⟨1, _⟩ => show win2_1.index t 1 * 40 + 1 * q.val = q.val; rw [(idx2 t).2.2.2.1]; omega

/-- The second layer's linear part of the arrays the region finds. -/
abbrev G (c : Dev nD) : Buf (Elt Ideal) ((c : Thread nD τ).loc main_v46) :=
  Cert.Gcn.lin2 (F := Ideal) (V c main_v45) (V c main_arg4)

/-- What point `t` writes back is block `t` of `G`. -/
theorem flushed_eq (c : Dev nD) (t : Fin cfg2.N) :
    (dat2 V c).flushed 2 t = ((cfg2.win 2).blk t).view.read (Elt Ideal) (G V c) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x40) hz]
  funext j
  obtain ⟨p, q, rfl⟩ : ∃ (p : Fin 5000) (q : Fin 40), j = ix2 p q := ⟨j 0, j 1, eq_ix2 j⟩
  have ht : t.val < 20 := Nat.lt_of_lt_of_eq t.isLt (show cfg2.N = 20 from N_2)
  have hp : p.val < 5000 := p.isLt
  have he : ((cfg2.win 2).blk t).view.emb (ix2 p q) = ix2 (⟨5000 * t.val + p.val, by omega⟩ : Fin 100000) q := by
    funext a
    apply Fin.ext
    match a with
    | ⟨0, _⟩ => show win2_2.index t 0 * 5000 + 1 * p.val = 5000 * t.val + p.val; rw [(idx2 t).2.2.2.2.1]; omega
    | ⟨1, _⟩ => show win2_2.index t 1 * 40 + 1 * q.val = q.val; rw [(idx2 t).2.2.2.2.2]; omega
  show k2_pay1 (F := Ideal) (iblk2 V c 0 t) (iblk2 V c 1 t) (ix2 p q)
    = G V c (((cfg2.win 2).blk t).view.emb (ix2 p q))
  rw [he]
  exact point_eq (iblk2 V c 0 t) (iblk2 V c 1 t) (V c main_v45) (V c main_arg4) t.val
    (fun p k r hr => blk0_apply V c t p k r hr) (fun k q => blk1_apply V c t k q) p q ⟨5000 * t.val + p.val, by omega⟩ rfl

/-- An index of the result array is in point `t`'s block iff each coordinate is in the block's range. -/
theorem mem_blk (t : Fin cfg2.N) (i : S100000x40.Idx) :
    i ∈ ((cfg2.win 2).blk t).view.set ↔ ∀ a : Fin 2, win2_2.index t a * S5000x40.size a ≤ (i a).val ∧ (i a).val < win2_2.index t a * S5000x40.size a + S5000x40.size a := by
  show i ∈ ((View.whole main_v46).slice (win2_2.rect t)).set ↔ _
  rw [View.set_slice_whole, Rect.mem_set_unit]
  exact Iff.rfl

/-- The region's result array ends at the second layer's linear part of the arrays it finds. -/
theorem final (c : Dev nD) : (dat2 V c).arrAt 2 cfg2.N = G V c :=
  (dat2 V c).arrAt_eq_of_cover 2 (G V c) (fun t _ => flushed_eq V c t) fun i => by
    have hi0 : (i 0).val < 100000 := (i 0).isLt
    have hi1 : (i 1).val < 40 := (i 1).isLt
    refine ⟨⟨(i 0).val / 5000, by rw [show cfg2.N = 20 from N_2]; omega⟩, flush2_2 _, ?_⟩
    rw [mem_blk]
    intro a
    match a with
    | ⟨0, _⟩ =>
      show win2_2.index _ 0 * 5000 ≤ (i 0).val ∧ (i 0).val < win2_2.index _ 0 * 5000 + 5000
      rw [(idx2 _).2.2.2.2.1]
      show (i 0).val / 5000 * 5000 ≤ (i 0).val ∧ (i 0).val < (i 0).val / 5000 * 5000 + 5000
      omega
    | ⟨1, _⟩ =>
      show win2_2.index _ 1 * 40 ≤ (i 1).val ∧ (i 1).val < win2_2.index _ 1 * 40 + 40
      rw [(idx2 _).2.2.2.2.2]
      omega

end Cert.Gcn.Region2

end
-- ==== Proof.KernelValue.lean ====
/-
  The kernel program's result as a function of its argument arrays.

  Following the buffer contents through the program's eight segments: the first stretches of host operations leave the
  arguments alone and compute the extended edges' sources, destinations and weights from the edge list; the first
  region leaves `lin1 x mask w1` in its result array and keeps every other buffer; the middle stretch aggregates that
  array and recasts the first bias as a row; the second region adds the row and takes the positive part; the third
  region multiplies by the second weight matrix; the last stretch aggregates again and adds the second bias. Each step is
  read at the contents the step before it leaves, so the result buffer ends at `Cert.Gcn.out` of the arguments.
-/
import proofs.«169555_j86535001079836_1_alg».proof.Proof.KernelRun
import proofs.«169555_j86535001079836_1_alg».proof.Proof.Stretches
import proofs.«169555_j86535001079836_1_alg».proof.Proof.Region0
import proofs.«169555_j86535001079836_1_alg».proof.Proof.Region1
import proofs.«169555_j86535001079836_1_alg».proof.Proof.Region2

set_option maxRecDepth 16384

noncomputable section

namespace Cert.Gcn.Whole

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## The arguments at the first region's entry -/

theorem arg0_3 : W3 m ρ c (Proc.devRef .tc main_arg0) = (m ((c.tc : Thread nD τ).loc main_arg0)) := Stretches.head_keeps (W0 m ρ c) main_arg0 (by decide) (by decide) (by decide)
theorem arg1_3 : W3 m ρ c (Proc.devRef .tc main_arg1) = (m ((c.tc : Thread nD τ).loc main_arg1)) := Stretches.head_keeps (W0 m ρ c) main_arg1 (by decide) (by decide) (by decide)
theorem arg2_3 : W3 m ρ c (Proc.devRef .tc main_arg2) = (m ((c.tc : Thread nD τ).loc main_arg2)) := Stretches.head_keeps (W0 m ρ c) main_arg2 (by decide) (by decide) (by decide)
theorem arg3_3 : W3 m ρ c (Proc.devRef .tc main_arg3) = (m ((c.tc : Thread nD τ).loc main_arg3)) := Stretches.head_keeps (W0 m ρ c) main_arg3 (by decide) (by decide) (by decide)
theorem arg4_3 : W3 m ρ c (Proc.devRef .tc main_arg4) = (m ((c.tc : Thread nD τ).loc main_arg4)) := Stretches.head_keeps (W0 m ρ c) main_arg4 (by decide) (by decide) (by decide)
theorem arg5_3 : W3 m ρ c (Proc.devRef .tc main_arg5) = (m ((c.tc : Thread nD τ).loc main_arg5)) := Stretches.head_keeps (W0 m ρ c) main_arg5 (by decide) (by decide) (by decide)

/-! ## The extended edges and their weights, from the first region's entry to the last stretch -/

theorem src_3 : W3 m ρ c (Proc.devRef .tc main_v5) = Cert.Gcn.srcOf (F := Ideal) (m ((c.tc : Thread nD τ).loc main_arg6)) := Stretches.head_src (W0 m ρ c)
theorem dst_3 : W3 m ρ c (Proc.devRef .tc main_v6) = Cert.Gcn.dstOf (F := Ideal) (m ((c.tc : Thread nD τ).loc main_arg6)) := Stretches.head_dst (W0 m ρ c)
theorem norm_3 : W3 m ρ c (Proc.devRef .tc main_v29)
    = Cert.Gcn.normOf (F := Ideal) (Cert.Gcn.srcOf (F := Ideal) (m ((c.tc : Thread nD τ).loc main_arg6))) (Cert.Gcn.dstOf (F := Ideal) (m ((c.tc : Thread nD τ).loc main_arg6))) :=
  Stretches.head_norm (W0 m ρ c)

/-- A buffer that is no array of the first region is, at the region's exit, as at its entry. -/
theorem keep_4 (b : Ref sig .tc) (hb : ∀ w, Pipeline.arrRef spec0 w ≠ b) : W4 m ρ c (Proc.devRef .tc b) = W3 m ρ c (Proc.devRef .tc b) :=
  W4_of_ne m ρ c b hb

/-- A buffer the middle stretch does not write and that is no array of the second region is, at that region's exit, as
    at the first region's exit. -/
theorem keep_6 (b : Ref sig .tc) (hk : b ∉ ([main_c_6, main_v31, main_v32, main_c_7, main_v33, main_v34, main_v35, main_v36, main_v37, main_v38, main_v39, main_v40, main_cst_8, main_v41, main_v42, main_v43, main_v44] : List (Ref sig .tc)))
    (hb : ∀ w, Pipeline.arrRef spec1 w ≠ b) : W6 m ρ c (Proc.devRef .tc b) = W4 m ρ c (Proc.devRef .tc b) :=
  (W6_of_ne m ρ c b hb).trans (Stretches.mid_keeps (W4 m ρ c) b hk)

/-- … and, if it is no array of the third region either, so it is at the third region's exit. -/
theorem keep_7 (b : Ref sig .tc) (hk : b ∉ ([main_c_6, main_v31, main_v32, main_c_7, main_v33, main_v34, main_v35, main_v36, main_v37, main_v38, main_v39, main_v40, main_cst_8, main_v41, main_v42, main_v43, main_v44] : List (Ref sig .tc)))
    (hb1 : ∀ w, Pipeline.arrRef spec1 w ≠ b) (hb2 : ∀ w, Pipeline.arrRef spec2 w ≠ b) :
    W7 m ρ c (Proc.devRef .tc b) = W4 m ρ c (Proc.devRef .tc b) :=
  (W7_of_ne m ρ c b hb2).trans (keep_6 m ρ c b hk hb1)

/-! ## The three regions and the stretches between them -/

/-- The first region's result array at its exit. -/
theorem lin1_4 : W4 m ρ c (Proc.devRef .tc main_v30)
    = Cert.Gcn.lin1 (F := Ideal) (m ((c.tc : Thread nD τ).loc main_arg0)) (m ((c.tc : Thread nD τ).loc main_arg1)) (m ((c.tc : Thread nD τ).loc main_arg2)) := by
  refine (W4_arr m ρ c 3).trans ((Region0.final (V3 m ρ) c).trans ?_)
  show Cert.Gcn.lin1 (F := Ideal) (W3 m ρ c (Proc.devRef .tc main_arg0)) (W3 m ρ c (Proc.devRef .tc main_arg1)) (W3 m ρ c (Proc.devRef .tc main_arg2)) = _
  rw [arg0_3, arg1_3, arg2_3]

/-- The aggregated first layer at the second region's entry. -/
theorem agg_5 : W5 m ρ c (Proc.devRef .tc main_v43)
    = Cert.Gcn.agg128 (F := Ideal) (Cert.Gcn.srcOf (F := Ideal) (m ((c.tc : Thread nD τ).loc main_arg6))) (Cert.Gcn.dstOf (F := Ideal) (m ((c.tc : Thread nD τ).loc main_arg6)))
        (Cert.Gcn.normOf (F := Ideal) (Cert.Gcn.srcOf (F := Ideal) (m ((c.tc : Thread nD τ).loc main_arg6))) (Cert.Gcn.dstOf (F := Ideal) (m ((c.tc : Thread nD τ).loc main_arg6))))
        (Cert.Gcn.lin1 (F := Ideal) (m ((c.tc : Thread nD τ).loc main_arg0)) (m ((c.tc : Thread nD τ).loc main_arg1)) (m ((c.tc : Thread nD τ).loc main_arg2))) := by
  refine (Stretches.mid_agg (W4 m ρ c)).trans ?_
  rw [keep_4 m ρ c main_v5 (by decide), keep_4 m ρ c main_v6 (by decide), keep_4 m ρ c main_v29 (by decide),
    src_3, dst_3, norm_3, lin1_4]

/-- The first bias as a row at the second region's entry. -/
theorem row_5 : W5 m ρ c (Proc.devRef .tc main_v44)
    = broadcastInDim Cert.ReferenceIdeal.S1x128 ![1] Cert.ReferenceIdeal.Facts₀.bcast_S128_S1x128_1 (m ((c.tc : Thread nD τ).loc main_arg3)) := by
  refine (Stretches.mid_row (W4 m ρ c)).trans ?_
  rw [keep_4 m ρ c main_arg3 (by decide), arg3_3]
  exact Cert.Gcn.row_forms _ _

/-- The hidden layer at the second region's exit. -/
theorem hidden_6 : W6 m ρ c (Proc.devRef .tc main_v45)
    = Cert.Gcn.biasRelu (F := Ideal)
        (Cert.Gcn.agg128 (F := Ideal) (Cert.Gcn.srcOf (F := Ideal) (m ((c.tc : Thread nD τ).loc main_arg6))) (Cert.Gcn.dstOf (F := Ideal) (m ((c.tc : Thread nD τ).loc main_arg6)))
          (Cert.Gcn.normOf (F := Ideal) (Cert.Gcn.srcOf (F := Ideal) (m ((c.tc : Thread nD τ).loc main_arg6))) (Cert.Gcn.dstOf (F := Ideal) (m ((c.tc : Thread nD τ).loc main_arg6))))
          (Cert.Gcn.lin1 (F := Ideal) (m ((c.tc : Thread nD τ).loc main_arg0)) (m ((c.tc : Thread nD τ).loc main_arg1)) (m ((c.tc : Thread nD τ).loc main_arg2))))
        (m ((c.tc : Thread nD τ).loc main_arg3)) := by
  refine (W6_arr m ρ c 2).trans ((Region1.final (V5 m ρ) c).trans ?_)
  show Cert.Gcn.biasReluRow (F := Ideal) (W5 m ρ c (Proc.devRef .tc main_v43)) (W5 m ρ c (Proc.devRef .tc main_v44)) = _
  rw [agg_5, row_5]
  rfl

/-- The second layer's linear part at the third region's exit. -/
theorem lin2_7 : W7 m ρ c (Proc.devRef .tc main_v46)
    = Cert.Gcn.lin2 (F := Ideal)
        (Cert.Gcn.biasRelu (F := Ideal)
          (Cert.Gcn.agg128 (F := Ideal) (Cert.Gcn.srcOf (F := Ideal) (m ((c.tc : Thread nD τ).loc main_arg6))) (Cert.Gcn.dstOf (F := Ideal) (m ((c.tc : Thread nD τ).loc main_arg6)))
            (Cert.Gcn.normOf (F := Ideal) (Cert.Gcn.srcOf (F := Ideal) (m ((c.tc : Thread nD τ).loc main_arg6))) (Cert.Gcn.dstOf (F := Ideal) (m ((c.tc : Thread nD τ).loc main_arg6))))
            (Cert.Gcn.lin1 (F := Ideal) (m ((c.tc : Thread nD τ).loc main_arg0)) (m ((c.tc : Thread nD τ).loc main_arg1)) (m ((c.tc : Thread nD τ).loc main_arg2))))
          (m ((c.tc : Thread nD τ).loc main_arg3)))
        (m ((c.tc : Thread nD τ).loc main_arg4)) := by
  refine (W7_arr m ρ c 2).trans ((Region2.final (V6 m ρ) c).trans ?_)
  show Cert.Gcn.lin2 (F := Ideal) (W6 m ρ c (Proc.devRef .tc main_v45)) (W6 m ρ c (Proc.devRef .tc main_arg4)) = _
  rw [hidden_6, keep_6 m ρ c main_arg4 (by decide) (by decide), keep_4 m ρ c main_arg4 (by decide), arg4_3]

/-- THE RESULT: the last boundary's contents at the result buffer is the network's function of the arguments. -/
theorem result_eq : W8 m ρ c (Proc.devRef .tc main_v62)
    = Cert.Gcn.out (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) := by
  refine (Stretches.tail_result (W7 m ρ c)).trans ?_
  rw [lin2_7,
    keep_7 m ρ c main_v5 (by decide) (by decide) (by decide), keep_7 m ρ c main_v6 (by decide) (by decide) (by decide),
    keep_7 m ρ c main_v29 (by decide) (by decide) (by decide), keep_7 m ρ c main_arg5 (by decide) (by decide) (by decide),
    keep_4 m ρ c main_v5 (by decide), keep_4 m ρ c main_v6 (by decide), keep_4 m ρ c main_v29 (by decide),
    keep_4 m ρ c main_arg5 (by decide), src_3, dst_3, norm_3, arg5_3]
  rfl

end Cert.Gcn.Whole

end
-- ==== Proof.lean ====
/-
  A two-layer graph convolution on 100000 nodes and 1600000 edges: the kernel program against its reference, over the
  extended reals.

  Both programs extend the edge list by one self-loop per node, weigh every edge by the inverse square roots of the
  in-degrees at its two ends, and compute `out = agg (max (agg ((x ∘ mask) · W1) + b1, 0) · W2) + b2`, where `agg` sums, for
  every node, the weighted rows of the edges ending at it (`Cert.Gcn.out`, Proof/Spec.lean). The reference does all of it
  with host operations. The kernel program does the two aggregations with the same host operations and the three dense
  pieces — the masked product with W1, the bias and positive part, the product with W2 — in three kernel regions that walk
  the node rows block by block. Over the extended reals a region's tile product into a zero tile is the host's product
  (the same sum over the contracted coordinate, the changes of float format the identity), and the blocks tile the
  arrays, so each region leaves exactly the host's array (Proof/Region0.lean, Region1.lean, Region2.lean); between the
  regions the two programs apply the same operations to equal arrays (Proof/Stretches.lean, Proof/KernelValue.lean). No
  law of arithmetic beyond that is used, so the finiteness of the inputs is never opened.

  The three frames: the two kernel programs' are the generated frame certificates; the reference's is its run with the
  result dropped. The idealization rewrote no operation, so there is nothing to preserve.
-/
import proofs.«169555_j86535001079836_1_alg».proof.Defs
import proofs.«169555_j86535001079836_1_alg».proof.Proof.Gen.Kernel
import proofs.«169555_j86535001079836_1_alg».proof.Proof.Gen.Kernel.Frame
import proofs.«169555_j86535001079836_1_alg».proof.Proof.Gen.KernelIdeal
import proofs.«169555_j86535001079836_1_alg».proof.Proof.Gen.KernelIdeal.Frame
import proofs.«169555_j86535001079836_1_alg».proof.Proof.Gen.ReferenceIdeal
import proofs.«169555_j86535001079836_1_alg».proof.Proof.Gen.Pre_finite_inputs
import proofs.«169555_j86535001079836_1_alg».proof.Proof.RefValue
import proofs.«169555_j86535001079836_1_alg».proof.Proof.KernelValue

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with their result arrays at the network's function of the (agreeing) arguments. -/
theorem algebraic : Cert.algebraic_KernelIdeal_ReferenceIdeal := by
  intro m ρ m' ρ' _ hagree
  refine ⟨fun c => Cert.Gcn.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.Gcn.Whole.result_eq m ρ c), (h c).2⟩) (Cert.KernelIdeal.Whole.run_result m ρ)
  · refine (θ_run Cert.ReferenceIdeal.defs _ _).mono (fun _ h c => ⟨(h c).1.trans ?_, (h c).2⟩)
      (Cert.ReferenceIdeal.ValueP.run (F := Ideal) m' ρ')
    rw [Cert.Gcn.ref_term_eq, (hagree c).1, (hagree c).2.1, (hagree c).2.2.1, (hagree c).2.2.2.1, (hagree c).2.2.2.2.1,
      (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
